-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1024x1024 : Shape := ⟨2, ![1024, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S128x1024 .f32) (main_arg1 : FVec F S1024x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S128x1024 : Shape := ⟨2, ![128, 1024]⟩
abbrev S1024x1024 : Shape := ⟨2, ![1024, 1024]⟩
abbrev S128x128 : Shape := ⟨2, ![128, 128]⟩
abbrev S128x128x1 : Shape := ⟨3, ![128, 128, 1]⟩
abbrev S1x128x128 : Shape := ⟨3, ![1, 128, 128]⟩
abbrev S128x128x128 : Shape := ⟨3, ![128, 128, 128]⟩

abbrev nBuf : Space → Nat
  | .hbm => 3
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S128x1024, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x128x1 : S128x128.ShapeCasts S128x128x1
  shapeCasts_S128x128_S1x128x128 : S128x128.ShapeCasts S1x128x128
  broadcasts_S128x128x1_S128x128x128 : S128x128x1.Broadcasts S128x128x128
  broadcasts_S1x128x128_S128x128x128 : S1x128x128.Broadcasts S128x128x128
  reduces_S128x128x128_S128x128 : S128x128x128.Reduces [1] S128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x1024.size a
  hwx0_0 : ∀ i : grid0.Coords, EltTy.bits .f32 = 32 ∨ (Rect.block (s := S128x1024) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x1024.size a
  hwx0_1 : ∀ i : grid0.Coords, EltTy.bits .f32 = 32 ∨ (Rect.block (s := S1024x1024) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x1024.size a
  hwx0_2 : ∀ i : grid0.Coords, EltTy.bits .f32 = 32 ∨ (Rect.block (s := S128x1024) S128x128.size (cc0_transform_2 i) (hinb0_2 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S128x1024 : Shape := ⟨2, ![128, 1024]⟩
abbrev S1024x1024 : Shape := ⟨2, ![1024, 1024]⟩
abbrev S_ : Shape := ⟨0, ![]⟩
abbrev S128x1024x1 : Shape := ⟨3, ![128, 1024, 1]⟩
abbrev S1x1024x1024 : Shape := ⟨3, ![1, 1024, 1024]⟩
abbrev S128x1024x1024 : Shape := ⟨3, ![128, 1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S128x1024x1, .f32⟩
  | .hbm, ⟨11, _⟩ => ⟨S1x1024x1024, .f32⟩
  | .hbm, ⟨12, _⟩ => ⟨S128x1024x1024, .f32⟩
  | .hbm, ⟨13, _⟩ => ⟨S128x1024x1024, .f32⟩
  | .hbm, ⟨14, _⟩ => ⟨S128x1024x1024, .f32⟩
  | .hbm, ⟨15, _⟩ => ⟨S_, .f32⟩
  | .hbm, ⟨16, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S128x1024_S128x1024x1_0_1 : S128x1024.BroadcastsInDim S128x1024x1 (![0, 1] : Fin 2 → Fin S128x1024x1.rank)
  bcast_S1024x1024_S1x1024x1024_1_2 : S1024x1024.BroadcastsInDim S1x1024x1024 (![1, 2] : Fin 2 → Fin S1x1024x1024.rank)
  bcast_S128x1024x1_S128x1024x1024_0_1_2 : S128x1024x1.BroadcastsInDim S128x1024x1024 (![0, 1, 2] : Fin 3 → Fin S128x1024x1024.rank)
  bcast_S1x1024x1024_S128x1024x1024_0_1_2 : S1x1024x1024.BroadcastsInDim S128x1024x1024 (![0, 1, 2] : Fin 3 → Fin S128x1024x1024.rank)
  reducesTo_S128x1024x1024_S128x1024_d1 : S128x1024x1024.ReducesTo [1] S128x1024
  h_S_ : 0 < S_.numel

variable [Facts₀]

class Facts : Prop extends Facts₀ where

variable [Facts]
-- ==== Proof.Pieces.lean ====
/-
  What each kind of grid point leaves behind, as values.

  The body runs in three ways, by the position `k` of the point within its run of eight:
    first (`k = 0`): the accumulator is overwritten with the reset value, read back, and overwritten with the step
      over it — so it ends at `step x0 x1 reset`;
    middle (`0 < k < 7`): the accumulator holding `acc` is overwritten with `step x0 x1 acc`;
    last (`k = 7`): the same, and the accumulator is then read back and copied whole to the output block — so the
      output block ends at `step x0 x1 acc` too.
  Here `x0`, `x1` are the point's blocks of the two inputs, `reset` and `step` the body's two stored values as pure
  functions of what it loaded. Each buffer is written by whole-buffer stores, so what it holds afterwards is the last
  store's value; a load of a buffer that an earlier store covered reads that store's value.
-/
import proofs.«177033_j14705968021856_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem origin : (![0, 0] : Fin 2 → Nat) = fun _ => 0 := funext fun a => by fin_cases a <;> rfl

/-- A first point leaves the accumulator at the step over the reset value. -/
theorem acc_first (c : Dev nD) (i : grid0.Coords) (a2 : Memref sig .tc .vmem S128x128 .f32) (h2 : a2.IsWhole)
    (a3 : Memref sig .tc .vmem S128x128 .f32) (h3 : a3.IsWhole) (a4 : Memref sig .tc .vmem S128x128 .f32) (h4 : a4.IsWhole)
    (a5 : Memref sig .tc .vmem S128x128 .f32) (h5 : a5.IsWhole) (hc0 : cond0_0 i) (hc1 : ¬cond0_1 i)
    (x0 x1 : Vec F S128x128 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S128x128) origin, View.readCov_unit_zero (S := S128x128) _ origin]
  simp only [View.readAt_eq_ld, h2.read_unread, h3.read_unread, View.ld_unit_zero (S := S128x128) origin]

/-- A middle point leaves the accumulator at the step over what it held. -/
theorem acc_middle (c : Dev nD) (i : grid0.Coords) (a2 : Memref sig .tc .vmem S128x128 .f32) (h2 : a2.IsWhole)
    (a3 : Memref sig .tc .vmem S128x128 .f32) (h3 : a3.IsWhole) (a4 : Memref sig .tc .vmem S128x128 .f32) (h4 : a4.IsWhole)
    (a5 : Memref sig .tc .vmem S128x128 .f32) (h5 : a5.IsWhole) (hc0 : ¬cond0_0 i) (hc1 : ¬cond0_1 i)
    (x0 x1 acc : Vec F S128x128 .f32) :
    sout0_B_0 c i a2 h2 a3 h3 a4 h4 a5 h5 hc0 hc1 x0 x1 acc = k0_pay2 x0 x1 acc := by
  unfold sout0_B_0
  rw [View.read_writes_eq_canon _ _ _ (scover0_B_0 c i a2 h2 a3 h3 a4 h4 a5 h5 hc0 hc1 x0 x1 acc)]
  unfold kernelRun0_B
  dsimp only
  rw [View.canon_unit_zero origin]
  simp only [View.readAt_eq_ld, h2.read_unread, h3.read_unread, h5.read_unread, View.ld_unit_zero (S := S128x128) origin]

/-- A last point leaves the accumulator at the step over what it held, -/
theorem acc_last (c : Dev nD) (i : grid0.Coords) (a2 : Memref sig .tc .vmem S128x128 .f32) (h2 : a2.IsWhole)
    (a3 : Memref sig .tc .vmem S128x128 .f32) (h3 : a3.IsWhole) (a4 : Memref sig .tc .vmem S128x128 .f32) (h4 : a4.IsWhole)
    (a5 : Memref sig .tc .vmem S128x128 .f32) (h5 : a5.IsWhole) (hc0 : ¬cond0_0 i) (hc1 : cond0_1 i)
    (x0 x1 acc : Vec F S128x128 .f32) :
    sout0_C_0 c i a2 h2 a3 h3 a4 h4 a5 h5 hc0 hc1 x0 x1 acc = k0_pay2 x0 x1 acc := by
  unfold sout0_C_0
  rw [View.read_writes_eq_canon _ _ _ (scover0_C_0 c i a2 h2 a3 h3 a4 h4 a5 h5 hc0 hc1 x0 x1 acc)]
  unfold kernelRun0_C
  dsimp only
  sl_unfold_words
  rw [View.canon_unit_zero origin]
  simp only [View.readAt_eq_ld, h2.read_unread, h3.read_unread, h5.read_unread, View.ld_unit_zero (S := S128x128) origin]

/-- and the output block at the same value: the accumulator read back after that store. -/
theorem out_last (c : Dev nD) (i : grid0.Coords) (a2 : Memref sig .tc .vmem S128x128 .f32) (h2 : a2.IsWhole)
    (a3 : Memref sig .tc .vmem S128x128 .f32) (h3 : a3.IsWhole) (a4 : Memref sig .tc .vmem S128x128 .f32) (h4 : a4.IsWhole)
    (a5 : Memref sig .tc .vmem S128x128 .f32) (h5 : a5.IsWhole) (hc0 : ¬cond0_0 i) (hc1 : cond0_1 i)
    (x0 x1 acc : Vec F S128x128 .f32) :
    out0_C_2 c i a2 h2 a3 h3 a4 h4 a5 h5 hc0 hc1 x0 x1 acc = k0_pay2 x0 x1 acc := by
  unfold out0_C_2
  rw [View.read_writes_eq_canon _ _ _ (cover0_C_2 c i a2 h2 a3 h3 a4 h4 a5 h5 hc0 hc1 x0 x1 acc)]
  unfold kernelRun0_C
  dsimp only
  sl_unfold_words
  rw [View.canon_unit_zero origin, View.readCov_unit_zero (S := S128x128) _ origin]
  simp only [View.readAt_eq_ld, h2.read_unread, h3.read_unread, h5.read_unread, View.ld_unit_zero (S := S128x128) origin]

end Cert.KernelIdeal.Pieces

end
-- ==== Proof.Blocks.lean ====
/-
  Which entries of the arguments a grid point sees.

  The 64 grid points are numbered `t = 8·o + k`: `o = t / 8` is the block of 128 output columns, `k = t % 8` the tile
  of 128 values of the reduced index. At point `t` the block of `m` is its columns `128·k … 128·k + 127` (all 128 rows),
  the block of the weights is rows `128·k …` and columns `128·o …`, and the output block is columns `128·o …` (all 128
  rows). `block_index` decides these block indices over the grid once; the two `…_apply` lemmas read an input block at
  an entry as the argument array at the entry with those offsets added.
-/
import proofs.«177033_j14705968021856_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block indices of the three windows at point `t = 8·o + k`: `(0, k)`, `(k, o)`, `(0, o)`. -/
theorem block_index : ∀ t : Fin cfg0.N,
    win0_0.index t 0 = 0 ∧ win0_0.index t 1 = t.val % 8 ∧ win0_1.index t 0 = t.val % 8 ∧ win0_1.index t 1 = t.val / 8
      ∧ win0_2.index t 0 = 0 ∧ win0_2.index t 1 = t.val / 8 :=
  (by decide +kernel : ∀ t : Fin grid0.N,
    win0_0.index t 0 = 0 ∧ win0_0.index t 1 = t.val % 8 ∧ win0_1.index t 0 = t.val % 8 ∧ win0_1.index t 1 = t.val / 8
      ∧ win0_2.index t 0 = 0 ∧ win0_2.index t 1 = t.val / 8)

/-- The block of `m` at point `t`, at `(b, kk)`, is `m` at `(b, 128·(t % 8) + kk)`. -/
theorem mBlock_apply (c : Dev nD) (t : Fin cfg0.N) (b kk : Fin 128) (i : S128x1024.Idx)
    (h0 : (i 0).val = b.val) (h1 : (i 1).val = 128 * (t.val % 8) + kk.val) :
    (iblk m c 0 t : Vec F S128x128 .f32) (ix2 b kk) = m ((c : Thread nD τ).loc main_arg0) i := by
  unfold iblk
  rw [View.read_apply]
  show V m c main_arg0 _ = m ((c : Thread nD τ).loc main_arg0) i
  refine congrArg (m ((c : Thread nD τ).loc main_arg0)) (funext fun a => Fin.ext ?_)
  match a with
  | ⟨0, _⟩ => show win0_0.index t 0 * 128 + 1 * b.val = (i 0).val; rw [(block_index t).1, h0]; omega
  | ⟨1, _⟩ => show win0_0.index t 1 * 128 + 1 * kk.val = (i 1).val; rw [(block_index t).2.1, h1]; omega

/-- The block of the weights at point `t`, at `(kk, oo)`, is the weights at `(128·(t % 8) + kk, 128·(t / 8) + oo)`. -/
theorem wBlock_apply (c : Dev nD) (t : Fin cfg0.N) (kk oo : Fin 128) (i : S1024x1024.Idx)
    (h0 : (i 0).val = 128 * (t.val % 8) + kk.val) (h1 : (i 1).val = 128 * (t.val / 8) + oo.val) :
    (iblk m c 1 t : Vec F S128x128 .f32) (ix2 kk oo) = m ((c : Thread nD τ).loc main_arg1) i := by
  unfold iblk
  rw [View.read_apply]
  show V m c main_arg1 _ = m ((c : Thread nD τ).loc main_arg1) i
  refine congrArg (m ((c : Thread nD τ).loc main_arg1)) (funext fun a => Fin.ext ?_)
  match a with
  | ⟨0, _⟩ => show win0_1.index t 0 * 128 + 1 * kk.val = (i 0).val; rw [(block_index t).2.2.1, h0]; omega
  | ⟨1, _⟩ => show win0_1.index t 1 * 128 + 1 * oo.val = (i 1).val; rw [(block_index t).2.2.2.1, h1]; omega

end Cert.KernelIdeal.Blocks

end
-- ==== Proof.LibFoldMin.lean ====
/-
  Folds of `min` over an initial segment of `Fin N`, grown one tile at a time.

  For a function `f : Fin N → α` into a linear order and any starting value `a`, write
  `below N n` for the indices `k` with `k < n`. The fold of `min` from `a` over `below N (n + T)` is the
  `min` of the fold over `below N n` and the fold, again from `a`, over the `T` indices `n, n + 1, …, n + T - 1`
  (`fold_below_tile`). The starting value may be repeated freely because `min` is idempotent, so nothing is asked of
  `a` (it need not be a top element). The segment of length `0` folds to `a` (`fold_below_zero`), and a segment
  reaching `N` is the fold over every index (`fold_below_all`). Together they say that a minimum accumulated tile by
  tile, each tile's minimum started from the same `a`, is the minimum over the whole range started from `a`.
-/
import Mathlib.Data.Finset.Fold
import Mathlib.Data.Fintype.Basic
import Mathlib.Order.MinMax

namespace Cert.FoldMin

variable {α : Type*} [LinearOrder α]

/-- The indices of `Fin N` below `n`. -/
def below (N n : ℕ) : Finset (Fin N) := Finset.univ.filter fun k => k.val < n

@[simp] theorem mem_below {N n : ℕ} (k : Fin N) : k ∈ below N n ↔ k.val < n := by
  unfold below; simp

/-- Over no index at all the fold is its starting value. -/
theorem fold_below_zero {N : ℕ} (f : Fin N → α) (a : α) : (below N 0).fold min a f = a := by
  have : below N 0 = ∅ := Finset.eq_empty_of_forall_notMem fun k hk => by simp at hk
  rw [this, Finset.fold_empty]

/-- A segment that reaches `N` holds every index. -/
theorem fold_below_all {N n : ℕ} (f : Fin N → α) (a : α) (h : N ≤ n) :
    (below N n).fold min a f = Finset.univ.fold min a f := by
  have : below N n = Finset.univ := Finset.eq_univ_of_forall fun k => by
    rw [mem_below]; exact lt_of_lt_of_le k.isLt h
  rw [this]

/-- One more tile: the segment of length `n + T` is the segment of length `n` and the `T` indices from `n` on
    (named by `e`), and the fold of `min` splits accordingly, the starting value on both sides. -/
theorem fold_below_tile {N T : ℕ} (f : Fin N → α) (a : α) (n : ℕ) (e : Fin T → Fin N)
    (he : ∀ i, (e i).val = n + i.val) :
    (below N (n + T)).fold min a f
      = min ((below N n).fold min a f) (Finset.univ.fold min a fun i => f (e i)) := by
  have key : ∀ c : α, c ≤ (below N (n + T)).fold min a f
      ↔ c ≤ min ((below N n).fold min a f) (Finset.univ.fold min a fun i => f (e i)) := by
    intro c
    simp only [Finset.le_fold_min, le_min_iff, mem_below, Finset.mem_univ, forall_true_left]
    constructor
    · rintro ⟨hc, h⟩
      exact ⟨⟨hc, fun k hk => h k (by omega)⟩, hc, fun i => h (e i) (by rw [he]; have := i.isLt; omega)⟩
    · rintro ⟨⟨hc, h1⟩, -, h2⟩
      refine ⟨hc, fun k hk => ?_⟩
      by_cases hlt : k.val < n
      · exact h1 k hlt
      · have hk' : k.val - n < T := by omega
        have : e ⟨k.val - n, hk'⟩ = k := Fin.ext (by rw [he]; show n + (k.val - n) = k.val; omega)
        rw [← this]; exact h2 _
  exact le_antisymm ((key _).1 le_rfl) ((key _).2 le_rfl)

end Cert.FoldMin
-- ==== Proof.MinOfMax.lean ====
/-
  What both programs compute, on the extended reals:

      out[b, o] = min over k < 1024 of  max (m[b, k]) (clip (w[k, o])),    clip x = min 1 (max 0 x),

  the minimum started from the value of the word 0x7F800000 (`top`), as both programs start it. The kernel does not
  take this minimum in one go: it walks the 1024 values of `k` in eight tiles of 128, keeping the minimum so far.
  `running … n` is the minimum over the first `n` values of `k`; it starts at `top` (`running_zero`), one tile takes
  `running n` to `running (n + 128)` by a `min` with the tile's own minimum (`running_tile`), and after 1024 values it
  is the whole minimum (`running_all`). No arithmetic on the extended reals is involved beyond `min` and `max`; in
  particular nothing here needs the inputs to be finite, and `top` is never evaluated.
-/
import Idealize.ShloMosaic.PureOps.Ideal
import Idealize.ShloMosaic.Lib.ValueIdx
import proofs.«177033_j14705968021856_1_alg».proof.Proof.LibFoldMin

noncomputable section

namespace Cert.MinOfMax

open Idealize.ShloMosaic Idealize.ShloMosaic.ValueIdx Cert.FoldMin

/-- The starting value of every minimum: the word 0x7F800000 read on the extended reals. -/
abbrev top : EReal := Ideal.ofBits .f32 0x7F800000#32

/-- The weights' clamp to [0, 1], in the order both programs apply it: first `max 0`, then `min 1`. -/
def clip (x : EReal) : EReal := min (Ideal.ofBits .f32 0x3F800000#32) (max (Ideal.ofBits .f32 0x00000000#32) x)

variable (M : (⟨2, ![128, 1024]⟩ : Shape).Idx → EReal) (W : (⟨2, ![1024, 1024]⟩ : Shape).Idx → EReal)

/-- The value minimised over `k` for output entry `(b, o)`. -/
def cell (b : Fin 128) (o : Fin 1024) (k : Fin 1024) : EReal := max (M (ix2 b k)) (clip (W (ix2 k o)))

/-- The result array: entry `(b, o)` is the minimum of `cell b o k` over all `k`. -/
def minOfMax : (⟨2, ![128, 1024]⟩ : Shape).Idx → EReal :=
  fun j => Finset.univ.fold min top (cell M W (j 0) (j 1))

/-- The minimum over the first `n` values of `k`. -/
def running (b : Fin 128) (o : Fin 1024) (n : ℕ) : EReal := (below 1024 n).fold min top (cell M W b o)

theorem running_zero (b : Fin 128) (o : Fin 1024) : running M W b o 0 = top :=
  fold_below_zero _ _

theorem running_all (b : Fin 128) (o : Fin 1024) : running M W b o 1024 = minOfMax M W (ix2 b o) :=
  fold_below_all _ _ (le_refl _)

/-- One tile of 128 values of `k`, the ones from `n` on (named by `e`), added to the running minimum. -/
theorem running_tile (b : Fin 128) (o : Fin 1024) (n : ℕ) (e : Fin 128 → Fin 1024) (he : ∀ i, (e i).val = n + i.val) :
    running M W b o (n + 128)
      = min (running M W b o n) (Finset.univ.fold min top fun i => cell M W b o (e i)) :=
  fold_below_tile _ _ n e he

end Cert.MinOfMax

end
-- ==== Proof.TileStep.lean ====
/-
  One grid point's arithmetic, read at an entry.

  At a grid point the kernel holds a [128, 128] block `x0` of `m` (rows `b`, 128 values `kk` of the reduced
  index), a [128, 128] block `x1` of the weights (the same 128 values `kk`, 128 output columns `oo`), and the
  accumulator `acc`. It clamps `x1`, places `x0` along a new last axis and the clamped block along a new first axis,
  broadcasts both to [128, 128, 128], takes the entrywise `max`, reduces the middle axis by `min` from the word
  0x7F800000, and stores `min acc` of that. At `(b, oo)` this is

      min (acc[b, oo]) (min over kk < 128 of  max (x0[b, kk]) (clip (x1[kk, oo]))),

  the inner minimum started from `top` (`step_apply`). The value the first point of a run stores before accumulating is
  `top` in every entry (`reset_apply`).
-/
import proofs.«177033_j14705968021856_1_alg».proof.Proof.Gen.KernelIdeal.Skeleton
import proofs.«177033_j14705968021856_1_alg».proof.Proof.MinOfMax
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.KernelIdeal.TileStep

open Cert.KernelIdeal Cert.KernelIdeal.Gen
open Idealize.ShloMosaic Idealize.ShloMosaic.ValueIdx Cert.MinOfMax

/-- A [128, 128] block given a trailing unit axis reads, at `(b, kk, 0)`, the block at `(b, kk)`. -/
theorem trailingUnit_apply (x : S128x128.Idx → EReal) (h : S128x128.ShapeCasts S128x128x1) (b kk : Fin 128) (u : Fin 1) :
    shapeCast S128x128x1 x h (ix3 b kk u) = x (ix2 b kk) :=
  shapeCast_apply x h _ _ (by
    have hu : u.val = 0 := by omega
    rw [Shape.rowMajor_val_two, Shape.rowMajor_val_three]
    show b.val * 128 + kk.val = (b.val * 128 + kk.val) * 1 + u.val
    omega)

/-- A [128, 128, 1] array broadcast along its last axis reads, at `(b, kk, oo)`, the operand at `(b, kk, 0)`. -/
theorem alongLast_apply (v : S128x128x1.Idx → EReal) (h : S128x128x1.Broadcasts S128x128x128) (b kk oo : Fin 128) :
    broadcastTo S128x128x128 v h (ix3 b kk oo) = v (ix3 b kk (0 : Fin 1)) := by
  refine broadcastTo_apply v h (ix3 b kk oo) (ix3 b kk (0 : Fin 1)) fun ax => ?_
  match ax with
  | ⟨0, _⟩ => show b.val = if (128 : Nat) = 1 then 0 else b.val; rw [if_neg (by decide)]
  | ⟨1, _⟩ => show kk.val = if (128 : Nat) = 1 then 0 else kk.val; rw [if_neg (by decide)]
  | ⟨2, _⟩ => show (0 : Nat) = if (1 : Nat) = 1 then 0 else oo.val; rw [if_pos rfl]

/-- A [1, 128, 128] array broadcast along its first axis reads, at `(b, kk, oo)`, the operand at `(0, kk, oo)`. -/
theorem alongFirst_apply (v : S1x128x128.Idx → EReal) (h : S1x128x128.Broadcasts S128x128x128) (b kk oo : Fin 128) :
    broadcastTo S128x128x128 v h (ix3 b kk oo) = v (ix3 (0 : Fin 1) kk oo) := by
  refine broadcastTo_apply v h (ix3 b kk oo) (ix3 (0 : Fin 1) kk oo) fun ax => ?_
  match ax with
  | ⟨0, _⟩ => show (0 : Nat) = if (1 : Nat) = 1 then 0 else b.val; rw [if_pos rfl]
  | ⟨1, _⟩ => show kk.val = if (128 : Nat) = 1 then 0 else kk.val; rw [if_neg (by decide)]
  | ⟨2, _⟩ => show oo.val = if (128 : Nat) = 1 then 0 else oo.val; rw [if_neg (by decide)]

/-- The middle axis of a [128, 128, 128] array reduced by `min` from the word 0x7F800000: at `(b, oo)` the fold of
    `min` from `top` over the 128 entries `(b, kk, oo)`. -/
theorem minMiddle_apply (v : FVec Ideal S128x128x128 .f32) (h : S128x128x128.Reduces [1] S128x128) (hφ : FKind.Formats .f32)
    (hacc : (0x7F800000#32 : BitVec 32) = FKind.minimumf.neutral .f32 hφ) (b oo : Fin 128) :
    multiReduction .minimumf [1] S128x128 v 0x7F800000#32 h hφ hacc (ix2 b oo)
      = Finset.univ.fold min top fun kk : Fin 128 => v (ix3 b kk oo) := by
  refine (multiReduction_minimumf_eq_fold v _ h hφ hacc (ix2 b oo)).trans ?_
  refine (h.fold_filter_drop_single _ _ v (ix2 b oo)).trans ?_
  show Finset.univ.fold min top (v ∘ h.lift (ix2 b oo)) = _
  refine Finset.fold_congr fun kk _ => ?_
  show v (h.lift (ix2 b oo) kk) = v (ix3 b kk oo)
  exact congrArg v (funext fun a => Fin.ext (match a with | ⟨0, _⟩ => rfl | ⟨1, _⟩ => rfl | ⟨2, _⟩ => rfl))

/-- What a point stores into the accumulator, at `(b, oo)`. -/
theorem step_apply (x0 x1 acc : Vec Ideal S128x128 .f32) (b oo : Fin 128) :
    k0_pay2 (F := Ideal) x0 x1 acc (ix2 b oo)
      = min (acc (ix2 b oo))
          (Finset.univ.fold min top fun kk : Fin 128 => max (x0 (ix2 b kk)) (clip (x1 (ix2 kk oo)))) := by
  unfold k0_pay2
  rw [shapeCast_self]
  refine congrArg (min (acc (ix2 b oo))) ?_
  refine (minMiddle_apply _ _ _ _ b oo).trans ?_
  refine Finset.fold_congr fun kk _ => ?_
  refine congrArg₂ max ?_ ?_
  · exact (alongLast_apply _ _ b kk oo).trans (trailingUnit_apply _ _ b kk 0)
  · exact (alongFirst_apply _ _ b kk oo).trans (shapeCast_ab_1ab_apply _ _ 0 kk oo)

/-- What the first point of a run stores before accumulating: `top` everywhere. -/
theorem reset_apply (j : S128x128.Idx) : k0_pay1 (F := Ideal) j = top := by
  unfold k0_pay1
  rw [shapeCast_self]
  rfl

end Cert.KernelIdeal.TileStep

end
-- ==== Proof.Accumulated.lean ====
/-
  The accumulator after every grid point is a running minimum.

  Point `t = 8·o + k` works on output columns `128·o …` and on the values `128·k … 128·k + 127` of the reduced index.
  Claim (`acc_eq`): after point `t` the accumulator holds, at `(b, oo)`, the minimum of
  `max (m[b, j]) (clip (w[j, 128·o + oo]))` over the first `128·k + 128` values of `j` — `running … (128·k + 128)`.
  By induction on `t`: a first point (`k = 0`) steps from the reset value, which is the running minimum over no value
  at all; any later point steps from what the point before left, which by induction is the running minimum over the
  first `128·k` values for the same `o`; and one step adds exactly the tile `128·k … 128·k + 127` (`step_running`:
  the point's blocks of `m` and of the weights hold those entries). At a last point (`k = 7`) the output block is left
  at the same value as the accumulator (`out_at_last`), which is then the minimum over all 1024 values.
-/
import proofs.«177033_j14705968021856_1_alg».proof.Proof.Pieces
import proofs.«177033_j14705968021856_1_alg».proof.Proof.Blocks
import proofs.«177033_j14705968021856_1_alg».proof.Proof.TileStep
import proofs.«177033_j14705968021856_1_alg».proof.Proof.MinOfMax

noncomputable section

namespace Cert.KernelIdeal.Accumulated

open Cert.KernelIdeal Cert.KernelIdeal.Gen Idealize.ShloMosaic Idealize.ShloMosaic.TcCoe Idealize.SL.Sem
open Idealize.ShloMosaic.ValueIdx Cert.MinOfMax
open Cert.KernelIdeal.Pieces Cert.KernelIdeal.Blocks Cert.KernelIdeal.TileStep

/-! ## What a point leaves, in terms of the step (any float values) -/

section AnyValues

variable {F : FTy → Type} [FloatOps F]
variable (m : (ℓ : Loc nD τ sig) → Buf (Elt F) ℓ)

/-- After a first point the accumulator is the step over the reset value. -/
theorem acc_at_first (c : Dev nD) (t : Fin cfg0.N) (h0 : t.val % 8 = 0) (h1 : ¬t.val % 8 = 7) :
    (outsAt0 m c t.val t.isLt).2 = k0_pay2 (iblk m c 0 t) (iblk m c 1 t) (k0_pay1 (F := F)) := by
  rw [outsAt0_A m c t h0 h1]
  exact acc_first c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- After any later point the accumulator is the step over what the point before left. -/
theorem acc_at_later (c : Dev nD) (t : Fin cfg0.N) (h0 : ¬t.val % 8 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 8 = 7
  · rw [outsAt0_C m c t h0 h1]
    exact acc_last c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    exact acc_middle c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- After a last point the output block holds what the accumulator holds. -/
theorem out_at_last (c : Dev nD) (t : Fin cfg0.N) (h0 : ¬t.val % 8 = 0) (h1 : t.val % 8 = 7) :
    (outsAt0 m c t.val t.isLt).1 = (outsAt0 m c t.val t.isLt).2 := by
  rw [outsAt0_C m c t h0 h1]
  exact (out_last c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).trans
    (acc_last c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).symm

end AnyValues

/-! ## On the extended reals: the running minimum -/

variable (m : (ℓ : Loc nD τ sig) → Buf (Elt Ideal) ℓ)

/-- The argument `m`, as the kernel is launched with it. -/
abbrev argM (c : Dev nD) : S128x1024.Idx → EReal := m ((c : Thread nD τ).loc main_arg0)
/-- The argument `weight`, as the kernel is launched with it. -/
abbrev argW (c : Dev nD) : S1024x1024.Idx → EReal := m ((c : Thread nD τ).loc main_arg1)

/-- The `kk`-th value of the reduced index in tile `k`. -/
def inTile (k : ℕ) (hk : k < 8) (kk : Fin 128) : Fin 1024 := ⟨128 * k + kk.val, by have := kk.isLt; omega⟩

/-- One point's step: from the running minimum over the first `128·k` values to the one over the first `128·k + 128`,
    at the output column the point works on. -/
theorem step_running (c : Dev nD) (t : Fin cfg0.N) (acc : Vec Ideal S128x128 .f32) (b oo : Fin 128) (o : Fin 1024)
    (ho : o.val = 128 * (t.val / 8) + oo.val)
    (hacc : acc (ix2 b oo) = running (argM m c) (argW m c) b o (128 * (t.val % 8))) :
    k0_pay2 (F := Ideal) (iblk m c 0 t) (iblk m c 1 t) acc (ix2 b oo)
      = running (argM m c) (argW m c) b o (128 * (t.val % 8) + 128) := by
  refine (step_apply (iblk m c 0 t) (iblk m c 1 t) acc b oo).trans ?_
  rw [hacc, running_tile (argM m c) (argW m c) b o (128 * (t.val % 8))
    (inTile (t.val % 8) (Nat.mod_lt _ (by decide))) (fun _ => rfl)]
  refine congrArg (min _) (Finset.fold_congr fun kk _ => ?_)
  refine congrArg₂ max ?_ (congrArg clip ?_)
  · exact mBlock_apply m c t b kk (ix2 b (inTile (t.val % 8) (Nat.mod_lt _ (by decide)) kk)) rfl rfl
  · exact wBlock_apply m c t kk oo (ix2 (inTile (t.val % 8) (Nat.mod_lt _ (by decide)) kk) o) rfl ho

/-- THE INVARIANT: after point `n = 8·o + k` the accumulator holds, at `(b, oo)`, the running minimum over the first
    `128·k + 128` values of the reduced index for output entry `(b, 128·o + oo)`. -/
theorem acc_eq (c : Dev nD) : ∀ (n : ℕ) (h : n < cfg0.N) (b oo : Fin 128) (o : Fin 1024),
    o.val = 128 * (n / 8) + oo.val →
    (outsAt0 m c n h).2 (ix2 b oo) = running (argM m c) (argW m c) b o (128 * (n % 8) + 128)
  | 0, h, b, oo, o, ho => by
    rw [acc_at_first m c ⟨0, h⟩ rfl (by show ¬(0 % 8 = 7); decide)]
    exact step_running m c ⟨0, h⟩ _ b oo o ho ((reset_apply _).trans (running_zero _ _ b o).symm)
  | n + 1, h, b, oo, o, ho => by
    have hN : n + 1 < 64 := lt_of_lt_of_eq h N_0
    by_cases h0 : (n + 1) % 8 = 0
    · rw [acc_at_first m c ⟨n + 1, h⟩ h0 (by show ¬(n + 1) % 8 = 7; omega)]
      refine step_running m c ⟨n + 1, h⟩ _ b oo o ho ((reset_apply _).trans ?_)
      show top = running _ _ b o (128 * ((n + 1) % 8))
      rw [h0]
      exact (running_zero _ _ b o).symm
    · rw [acc_at_later m c ⟨n + 1, h⟩ h0]
      refine step_running m c ⟨n + 1, h⟩ _ b oo o ho ?_
      show (outsAt0 m c n _).2 (ix2 b oo) = running _ _ b o (128 * ((n + 1) % 8))
      rw [acc_eq c n (Nat.lt_of_succ_lt h) b oo o (by omega)]
      congr 1
      omega

end Cert.KernelIdeal.Accumulated

end
-- ==== Proof.WholeArray.lean ====
/-
  From the blocks written back to the whole result array.

  The output block is written back to the result array only at the last point of each run of eight, `t = 8·o + 7`,
  as columns `128·o … 128·o + 127`. What is written there is the accumulator after that point, the running minimum
  over all 1024 values, that is `minOfMax` at `(b, 128·o + oo)`: each block written back is that block of the one array
  `minOfMax m w` (`flushed_eq`). Every entry `(b, n)` of the result lies in the block of point `8·(n / 128) + 7`
  (`covered`), so after the run the result array is `minOfMax m w` (`final`, `run`).
-/
import proofs.«177033_j14705968021856_1_alg».proof.Proof.Accumulated
import proofs.«177033_j14705968021856_1_alg».proof.Proof.Gen.KernelIdeal.Value
import Idealize.ShloMosaic.Lib.Pipeline.Value

noncomputable section

namespace Cert.KernelIdeal.WholeArray

open Cert.KernelIdeal Cert.KernelIdeal.Gen Idealize.ShloMosaic Idealize.ShloMosaic.TcCoe Idealize.SL.Sem
open Idealize.ShloMosaic.Pipeline (Dat)
open Idealize.ShloMosaic.ValueIdx Cert.MinOfMax
open Cert.KernelIdeal.Blocks Cert.KernelIdeal.Accumulated

variable (m : (ℓ : Loc nD τ sig) → Buf (Elt Ideal) ℓ) (ρ : Dev nD → PrngReg)

/-- The result array, as contents of the result buffer. -/
abbrev result (c : Dev nD) : Buf (Elt Ideal) ((c : Thread nD τ).loc main_v0) := minOfMax (argM m c) (argW m c)

/-- What a point writes back is its block of `minOfMax` of the arguments. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  have h0 : ¬t.val % 8 = 0 := by omega
  have hN : t.val < 64 := lt_of_lt_of_eq t.isLt N_0
  obtain ⟨-, -, -, -, e0, e1⟩ := block_index t
  show (cfg0.win 2).cut (grid0.coords t) ((dats m 0 c).after 2 t) = _
  rw [after0_2, out_at_last m c t h0 h7]
  funext y
  obtain ⟨b, oo, rfl⟩ : ∃ (b oo : Fin 128), y = ix2 b oo := ⟨y 0, y 1, eq_ix2 y⟩
  rw [View.read_apply]
  show (outsAt0 m c t.val t.isLt).2 (ix2 b oo) = minOfMax (argM m c) (argW m c) (((cfg0.win 2).blk t).view.emb (ix2 b oo))
  have hoo : oo.val < 128 := oo.isLt
  rw [acc_eq m c t.val t.isLt b oo ⟨128 * (t.val / 8) + oo.val, by omega⟩ rfl, h7]
  show running _ _ b _ 1024 = _
  rw [running_all]
  refine congrArg (minOfMax (argM m c) (argW m c)) (funext fun a => Fin.ext ?_)
  match a with
  | ⟨0, _⟩ => show b.val = win0_2.index t 0 * 128 + 1 * b.val; rw [e0]; omega
  | ⟨1, _⟩ => show 128 * (t.val / 8) + oo.val = win0_2.index t 1 * 128 + 1 * oo.val; rw [e1]; omega

/-- An entry of the result is in a point's block iff each coordinate is in the block's range on its axis. -/
theorem mem_blk (t : Fin cfg0.N) (i : S128x1024.Idx) :
    i ∈ ((cfg0.win 2).blk t).view.set
      ↔ ∀ a : Fin 2, win0_2.index t a * S128x128.size a ≤ (i a).val ∧ (i a).val < win0_2.index t a * S128x128.size a + S128x128.size a := by
  show i ∈ ((View.whole main_v0).slice (win0_2.rect t)).set ↔ _
  rw [View.set_slice_whole, Rect.mem_set_unit]
  exact Iff.rfl

/-- Entry `(b, n)` lies in the block written back at point `8·(n / 128) + 7`. -/
theorem covered (i : S128x1024.Idx) :
    ∃ t : Fin cfg0.N, (cfg0.win 2).flush t = true ∧ i ∈ ((cfg0.win 2).blk t).view.set := by
  have hi0 : (i 0).val < 128 := (i 0).isLt
  have hi1 : (i 1).val < 1024 := (i 1).isLt
  have ht' : 8 * ((i 1).val / 128) + 7 < 64 := by omega
  let t : Fin cfg0.N := ⟨8 * ((i 1).val / 128) + 7, lt_of_lt_of_eq ht' N_0.symm⟩
  have ht : t.val = 8 * ((i 1).val / 128) + 7 := rfl
  obtain ⟨-, -, -, -, e0, e1⟩ := block_index t
  refine ⟨t, (flush0_2 t).mpr (by rw [ht]; omega), ?_⟩
  rw [mem_blk]
  intro a
  match a with
  | ⟨0, _⟩ =>
    show win0_2.index t 0 * 128 ≤ (i 0).val ∧ (i 0).val < win0_2.index t 0 * 128 + 128
    rw [e0]; omega
  | ⟨1, _⟩ =>
    show win0_2.index t 1 * 128 ≤ (i 1).val ∧ (i 1).val < win0_2.index t 1 * 128 + 128
    rw [e1, ht]; omega

/-- The result array after the run. -/
theorem final (c : Dev nD) : (dats m 0 c).arrAt 2 cfg0.N = result m c :=
  (dats m 0 c).arrAt_eq_of_cover 2 (result m c) (flushed_eq m c) covered

/-- The kernel's run, read: the result array is `minOfMax` of the arguments, which are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.WholeArray

end
-- ==== Proof.RefMinOfMax.lean ====
/-
  The reference computes `minOfMax`.

  Its last operation is a `reduce` with a `minimum` body over axis 1 of the [128, 1024, 1024] array
  `(b, k, o) ↦ max (m[b, k]) (clip (w[k, o]))`, started from the word 0x7F800000. Over one axis and for a commutative,
  associative body such a reduce is, at `(b, o)`, the fold of the body over the 1024 values of `k`; and the array it
  folds is, entry by entry, `cell`: the two broadcasts of `m` read `m` at `(b, k)`, the two broadcasts of the clamped
  weights read them at `(k, o)`, and the clamp is `min 1 (max 0 ·)` with both bounds broadcast scalars.
-/
import proofs.«177033_j14705968021856_1_alg».proof.Proof.Gen.ReferenceIdeal.Read
import proofs.«177033_j14705968021856_1_alg».proof.Proof.MinOfMax
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.MinOfMax

/-- Axis 1 of [128, 1024, 1024] reduces to [128, 1024]. -/
theorem reduces_k : S128x1024x1024.Reduces [1] S128x1024 := by decide

/-- The index of `m` that entry `(b, k, o)` of the broadcast array reads. -/
theorem idx_m (b : Fin 128) (k o : Fin 1024) : idx_main_v1 (idx_main_v3 (ix3 b k o)) = ix2 b k :=
  funext fun a => match a with | ⟨0, _⟩ => rfl | ⟨1, _⟩ => rfl

/-- The index of the clamped weights that entry `(b, k, o)` of the broadcast array reads. -/
theorem idx_w (b : Fin 128) (k o : Fin 1024) : idx_main_v2 (idx_main_v4 (ix3 b k o)) = ix2 k o :=
  funext fun a => match a with | ⟨0, _⟩ => rfl | ⟨1, _⟩ => rfl

/-- The index with `k` inserted on the reduced axis is `(b, k, o)`. -/
theorem lift_eq (b : Fin 128) (o k : Fin 1024) : reduces_k.lift (ix2 b o) k = ix3 b k o :=
  funext fun a => Fin.ext (match a with | ⟨0, _⟩ => rfl | ⟨1, _⟩ => rfl | ⟨2, _⟩ => rfl)

/-- The array the reduce folds is `cell`, entry by entry. -/
theorem reduced_apply (x0 : (⟨S128x1024, .f32⟩ : BufTy).Contents (Elt Ideal))
    (x1 : (⟨S1024x1024, .f32⟩ : BufTy).Contents (Elt Ideal)) (b : Fin 128) (k o : Fin 1024) :
    val_main_v5 (F := Ideal) x0 x1 (ix3 b k o) = cell x0 x1 b o k := by
  rw [val_main_v5_apply, val_main_v3_apply, val_main_v1_apply, val_main_v4_apply, val_main_v2_apply, val_main_v0_apply,
    val_main_call0_v4_apply, val_main_call0_v3_apply, val_main_cst_0_apply, val_main_call0_v2_apply,
    val_main_call0_v1_apply, val_main_call0_v0_apply, val_main_cst_apply, idx_m, idx_w]
  rfl

/-- The reference's result is `minOfMax` of its two arguments. -/
theorem result_eq (x0 : (⟨S128x1024, .f32⟩ : BufTy).Contents (Elt Ideal))
    (x1 : (⟨S1024x1024, .f32⟩ : BufTy).Contents (Elt Ideal)) :
    val_main_v6 (F := Ideal) x0 x1 = minOfMax x0 x1 := by
  funext j
  obtain ⟨b, o, rfl⟩ : ∃ (b : Fin 128) (o : Fin 1024), j = ix2 b o := ⟨j 0, j 1, eq_ix2 j⟩
  unfold val_main_v6
  rw [Host.reduce_eq_fold_single FloatOps.minimumf _ _ reducesTo_S128x1024x1024_S128x1024_d1 reduces_k h_S_]
  show Finset.univ.fold min top (val_main_v5 (F := Ideal) x0 x1 ∘ reduces_k.lift (ix2 b o)) = _
  unfold minOfMax
  refine Finset.fold_congr fun k _ => ?_
  show val_main_v5 (F := Ideal) x0 x1 (reduces_k.lift (ix2 b o) k) = cell x0 x1 b o k
  exact (congrArg (val_main_v5 (F := Ideal) x0 x1) (lift_eq b o k)).trans (reduced_apply x0 x1 b k o)

end Cert.ReferenceIdeal.RefValue

end
-- ==== Proof.lean ====
/-
  The kernel and its reference compute the same array on the extended reals:

      out[b, o] = min over k < 1024 of  max (m[b, k]) (min 1 (max 0 (w[k, o]))),    m : [128, 1024], w : [1024, 1024].

  The reference takes the minimum over `k` in one reduction started from the word 0x7F800000. The kernel walks an
  8 × 8 grid: for each block of 128 output columns it visits the 1024 values of `k` in eight tiles of 128, keeping
  the minimum so far in an accumulator that it resets to the same word at the first tile, and copies the accumulator to
  the output block at the last tile. The two agree because `min` is associative, commutative and idempotent: a
  minimum accumulated tile by tile, every tile's own minimum started from the same value, is the minimum over the whole
  range started from that value. Nothing more is used of the extended reals — no arithmetic, hence no finiteness of the
  inputs, and the three literals (0, 1, and the starting word) are the same words on both sides and are never evaluated.

  The modules: `LibFoldMin` (folds of `min` over an initial segment, tile by tile), `MinOfMax` (the array above and
  its running minimum), `RefMinOfMax` (the reference computes it), `TileStep` (one grid point's arithmetic at an
  entry), `Pieces` (what each kind of point leaves in the accumulator and the output block), `Blocks` (which entries
  of the arguments a point sees), `Accumulated` (the accumulator after every point is the running minimum),
  `WholeArray` (the blocks written back make up the whole array). The kernel's idealization rewrote nothing, so that
  conjunct is `True`; the three frames are the generated runs.
-/
import proofs.«177033_j14705968021856_1_alg».proof.Defs
import proofs.«177033_j14705968021856_1_alg».proof.Proof.Gen.Kernel
import proofs.«177033_j14705968021856_1_alg».proof.Proof.Gen.Kernel.Skeleton
import proofs.«177033_j14705968021856_1_alg».proof.Proof.Gen.Kernel.Launch
import proofs.«177033_j14705968021856_1_alg».proof.Proof.Gen.Kernel.Points
import proofs.«177033_j14705968021856_1_alg».proof.Proof.Gen.Kernel.Frame
import proofs.«177033_j14705968021856_1_alg».proof.Proof.Gen.KernelIdeal
import proofs.«177033_j14705968021856_1_alg».proof.Proof.Gen.KernelIdeal.Skeleton
import proofs.«177033_j14705968021856_1_alg».proof.Proof.Gen.KernelIdeal.Launch
import proofs.«177033_j14705968021856_1_alg».proof.Proof.Gen.KernelIdeal.Points
import proofs.«177033_j14705968021856_1_alg».proof.Proof.Gen.KernelIdeal.Frame
import proofs.«177033_j14705968021856_1_alg».proof.Proof.Gen.KernelIdeal.Value
import proofs.«177033_j14705968021856_1_alg».proof.Proof.Gen.ReferenceIdeal
import proofs.«177033_j14705968021856_1_alg».proof.Proof.Gen.ReferenceIdeal.Run
import proofs.«177033_j14705968021856_1_alg».proof.Proof.Gen.ReferenceIdeal.Read
import proofs.«177033_j14705968021856_1_alg».proof.Proof.Gen.Pre_finite_inputs
import proofs.«177033_j14705968021856_1_alg».proof.Proof.WholeArray
import proofs.«177033_j14705968021856_1_alg».proof.Proof.RefMinOfMax
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read on the extended reals. -/
theorem preserves : Cert.preserves_Kernel_KernelIdeal := trivial

/-- Both programs end with the result array at `minOfMax` of arguments that agree. -/
theorem algebraic : Cert.algebraic_KernelIdeal_ReferenceIdeal := by
  intro m ρ m' ρ' _ hagree
  refine ⟨fun c => Cert.KernelIdeal.WholeArray.result m c, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v6_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
